-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x19x512x1024 : Shape := ⟨4, ![4, 19, 512, 1024]⟩
abbrev S4x512x1024 : Shape := ⟨3, ![4, 512, 1024]⟩
abbrev S_ : Shape := ⟨0, ![]⟩

class Facts : Prop where
  bcast_S_S4x19x512x1024 : S_.BroadcastsInDim S4x19x512x1024 (![] : Fin 0 → Fin S4x19x512x1024.rank)
  reducesTo_S4x19x512x1024_S_d0_1_2_3 : S4x19x512x1024.ReducesTo [0, 1, 2, 3] S_
  h_S_ : 0 < S_.numel

variable [Facts]

def fn {F : FTy → Type} [FloatOps F] (main_arg0 : FVec F S4x19x512x1024 .f32) (main_arg1 : IVec S4x512x1024 32) : IVec S_ 1 :=
  let main_v0 : FVec F S4x19x512x1024 .f32 := Host.absf main_arg0
  let main_cst : FVec F S_ .f32 := constant S_ .f32 0x7F800000#32
  let main_v1 : FVec F S4x19x512x1024 .f32 := broadcastInDim S4x19x512x1024 ![] bcast_S_S4x19x512x1024 main_cst
  let main_v2 : IVec S4x19x512x1024 1 := cmpf .olt main_v0 main_v1
  let main_c : IVec S_ 1 := constantI S_ 1 1#1
  let main_v3 : IVec S_ 1 := (fun x v => Host.reduce IntOp.andi x v reducesTo_S4x19x512x1024_S_d0_1_2_3 h_S_) main_v2 main_c
  main_v3
-- ==== Kernel.lean ====
abbrev S4x19x512x1024 : Shape := ⟨4, ![4, 19, 512, 1024]⟩
abbrev S4x512x1024 : Shape := ⟨3, ![4, 512, 1024]⟩
abbrev S1x512x1024 : Shape := ⟨3, ![1, 512, 1024]⟩
abbrev S512x1024 : Shape := ⟨2, ![512, 1024]⟩
abbrev S19x512 : Shape := ⟨2, ![19, 512]⟩
abbrev S1x19x128x1024 : Shape := ⟨4, ![1, 19, 128, 1024]⟩
abbrev S128x1024 : Shape := ⟨2, ![128, 1024]⟩
abbrev S19x128 : Shape := ⟨2, ![19, 128]⟩
abbrev S19x128x1024 : Shape := ⟨3, ![19, 128, 1024]⟩
abbrev S1x128x1024 : Shape := ⟨3, ![1, 128, 1024]⟩
abbrev S_ : Shape := ⟨0, ![]⟩
abbrev S19 : Shape := ⟨1, ![19]⟩
abbrev S18 : Shape := ⟨1, ![18]⟩

abbrev nBuf : Space → Nat
  | .hbm => 15
  | .vmem => 6
  | .smem => 0
  | _ => 0

abbrev bufTy : (tb : Table) → Fin (tcTables nBuf tb) → BufTy
  | .hbm, ⟨0, _⟩ => ⟨S4x19x512x1024, .f32⟩
  | .hbm, ⟨1, _⟩ => ⟨S4x512x1024, .i32⟩
  | .hbm, ⟨2, _⟩ => ⟨S1x512x1024, .i32⟩
  | .hbm, ⟨3, _⟩ => ⟨S512x1024, .i32⟩
  | .hbm, ⟨4, _⟩ => ⟨S19x512, .f32⟩
  | .hbm, ⟨5, _⟩ => ⟨S_, .f32⟩
  | .hbm, ⟨6, _⟩ => ⟨S19, .f32⟩
  | .hbm, ⟨7, _⟩ => ⟨S_, .f32⟩
  | .hbm, ⟨8, _⟩ => ⟨S19, .f32⟩
  | .hbm, ⟨9, _⟩ => ⟨S19, .f32⟩
  | .hbm, ⟨10, _⟩ => ⟨S18, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .local _ .vmem, ⟨0, _⟩ => ⟨S1x19x128x1024, .f32⟩
  | .local _ .vmem, ⟨1, _⟩ => ⟨S1x19x128x1024, .f32⟩
  | .local _ .vmem, ⟨2, _⟩ => ⟨S128x1024, .i32⟩
  | .local _ .vmem, ⟨3, _⟩ => ⟨S128x1024, .i32⟩
  | .local _ .vmem, ⟨4, _⟩ => ⟨S19x128, .f32⟩
  | .local _ .vmem, ⟨5, _⟩ => ⟨S19x128, .f32⟩
  | _, _ => ⟨S4x19x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 4 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1x19x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S19x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  slices_S4x512x1024_S1x512x1024_3_0_0 : S4x512x1024.Slices ![3, 0, 0] S1x512x1024
  shapeCasts_S1x512x1024_S512x1024 : S1x512x1024.ShapeCasts S512x1024
  inb_S1x19x128x1024_S1x19x128x1024_0_0_0_0 : ∀ a, (![0, 0, 0, 0] : Fin 4 → Nat) a + S1x19x128x1024.size a ≤ S1x19x128x1024.size a
  h_S1x19x128x1024 : 0 < S1x19x128x1024.numel
  shapeCasts_S1x19x128x1024_S19x128x1024 : S1x19x128x1024.ShapeCasts S19x128x1024
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  iota_S19x128x1024_d0_w32 : S19x128x1024.Iotas .tc 32 [0]
  shapeCasts_S128x1024_S1x128x1024 : S128x1024.ShapeCasts S1x128x1024
  broadcasts_S1x128x1024_S19x128x1024 : S1x128x1024.Broadcasts S19x128x1024
  natLt_1_32 : 1 < 32
  reduces_S19x128x1024_S19x128 : S19x128x1024.Reduces [2] S19x128
  inb_S19x128_S19x128_0_0 : ∀ a, (![0, 0] : Fin 2 → Nat) a + S19x128.size a ≤ S19x128.size a
  h_S19x128 : 0 < S19x128.numel
  reducesTo_S19x512_S19_d1 : S19x512.ReducesTo [1] S19
  h_S_ : 0 < S_.numel
  bcast_S_S19 : S_.BroadcastsInDim S19 (![] : Fin 0 → Fin S19.rank)
  slices_S19_S18_1 : S19.Slices ![1] S18
  reducesTo_S18_S_d0 : S18.ReducesTo [0] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x19x128x1024.size a ≤ S4x19x512x1024.size a
  hwx0_0 : ∀ i : grid0.Coords, EltTy.bits .f32 = 32 ∨ (Rect.block (s := S4x19x512x1024) S1x19x128x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1024.size a ≤ S512x1024.size a
  hwx0_1 : ∀ i : grid0.Coords, EltTy.bits .i32 = 32 ∨ (Rect.block (s := S512x1024) S128x1024.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S19x128.size a ≤ S19x512.size a
  hwx0_2 : ∀ i : grid0.Coords, EltTy.bits .f32 = 32 ∨ (Rect.block (s := S19x512) S19x128.size (cc0_transform_2 i) (hinb0_2 i)).WholeWords (EltTy.packing .f32)

variable [Facts₀]

abbrev win0_0 : Pipeline.Window sig grid0 :=
  Pipeline.Window.ofSpec (Memref.whole main_arg0) S1x19x128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S19x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x19x512x1024 : Shape := ⟨4, ![4, 19, 512, 1024]⟩
abbrev S4x512x1024 : Shape := ⟨3, ![4, 512, 1024]⟩
abbrev S1x19x512x1024 : Shape := ⟨4, ![1, 19, 512, 1024]⟩
abbrev S19x512x1024 : Shape := ⟨3, ![19, 512, 1024]⟩
abbrev S1x512x1024 : Shape := ⟨3, ![1, 512, 1024]⟩
abbrev S512x1024 : Shape := ⟨2, ![512, 1024]⟩
abbrev S19 : Shape := ⟨1, ![19]⟩
abbrev S19x1x1 : Shape := ⟨3, ![19, 1, 1]⟩
abbrev S_ : Shape := ⟨0, ![]⟩
abbrev S19x512 : Shape := ⟨2, ![19, 512]⟩
abbrev S18 : Shape := ⟨1, ![18]⟩

abbrev nBuf : Space → Nat
  | .hbm => 45
  | .vmem => 0
  | .smem => 0
  | _ => 0

abbrev bufTy : (tb : Table) → Fin (tcTables nBuf tb) → BufTy
  | .hbm, ⟨0, _⟩ => ⟨S4x19x512x1024, .f32⟩
  | .hbm, ⟨1, _⟩ => ⟨S4x512x1024, .i32⟩
  | .hbm, ⟨2, _⟩ => ⟨S1x19x512x1024, .f32⟩
  | .hbm, ⟨3, _⟩ => ⟨S19x512x1024, .f32⟩
  | .hbm, ⟨4, _⟩ => ⟨S1x512x1024, .i32⟩
  | .hbm, ⟨5, _⟩ => ⟨S512x1024, .i32⟩
  | .hbm, ⟨6, _⟩ => ⟨S1x512x1024, .i32⟩
  | .hbm, ⟨7, _⟩ => ⟨S19, .i32⟩
  | .hbm, ⟨8, _⟩ => ⟨S19x1x1, .i32⟩
  | .hbm, ⟨9, _⟩ => ⟨S19x512x1024, .i32⟩
  | .hbm, ⟨10, _⟩ => ⟨S19x512x1024, .i32⟩
  | .hbm, ⟨11, _⟩ => ⟨S19x512x1024, .i1⟩
  | .hbm, ⟨12, _⟩ => ⟨S19x512x1024, .f32⟩
  | .hbm, ⟨13, _⟩ => ⟨S19x512x1024, .f32⟩
  | .hbm, ⟨14, _⟩ => ⟨S_, .f32⟩
  | .hbm, ⟨15, _⟩ => ⟨S19x512, .f32⟩
  | .hbm, ⟨16, _⟩ => ⟨S19x512x1024, .f32⟩
  | .hbm, ⟨17, _⟩ => ⟨S_, .f32⟩
  | .hbm, ⟨18, _⟩ => ⟨S19x512, .f32⟩
  | .hbm, ⟨19, _⟩ => ⟨S_, .f32⟩
  | .hbm, ⟨20, _⟩ => ⟨S19x512, .f32⟩
  | .hbm, ⟨21, _⟩ => ⟨S19x512, .f32⟩
  | .hbm, ⟨22, _⟩ => ⟨S_, .f32⟩
  | .hbm, ⟨23, _⟩ => ⟨S19x512, .f32⟩
  | .hbm, ⟨24, _⟩ => ⟨S_, .f32⟩
  | .hbm, ⟨25, _⟩ => ⟨S19x512, .f32⟩
  | .hbm, ⟨26, _⟩ => ⟨S19x512, .f32⟩
  | .hbm, ⟨27, _⟩ => ⟨S_, .f32⟩
  | .hbm, ⟨28, _⟩ => ⟨S19x512, .f32⟩
  | .hbm, ⟨29, _⟩ => ⟨S19x512, .f32⟩
  | .hbm, ⟨30, _⟩ => ⟨S19x512, .f32⟩
  | .hbm, ⟨31, _⟩ => ⟨S19x512, .f32⟩
  | .hbm, ⟨32, _⟩ => ⟨S_, .f32⟩
  | .hbm, ⟨33, _⟩ => ⟨S19x512, .f32⟩
  | .hbm, ⟨34, _⟩ => ⟨S19x512, .f32⟩
  | .hbm, ⟨35, _⟩ => ⟨S_, .f32⟩
  | .hbm, ⟨36, _⟩ => ⟨S19, .f32⟩
  | .hbm, ⟨37, _⟩ => ⟨S_, .f32⟩
  | .hbm, ⟨38, _⟩ => ⟨S19, .f32⟩
  | .hbm, ⟨39, _⟩ => ⟨S19, .f32⟩
  | .hbm, ⟨40, _⟩ => ⟨S18, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | _, _ => ⟨S4x19x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_cst : Ref sig .tc := ⟨.hbm, 14, rfl⟩
abbrev main_v12 : Ref sig .tc := ⟨.hbm, 15, rfl⟩
abbrev main_v13 : Ref sig .tc := ⟨.hbm, 16, rfl⟩
abbrev main_cst_0 : Ref sig .tc := ⟨.hbm, 17, rfl⟩
abbrev main_v14 : Ref sig .tc := ⟨.hbm, 18, rfl⟩
abbrev main_cst_1 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_v19 : Ref sig .tc := ⟨.hbm, 26, rfl⟩
abbrev main_cst_4 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_5 : Ref sig .tc := ⟨.hbm, 32, rfl⟩
abbrev main_v24 : Ref sig .tc := ⟨.hbm, 33, rfl⟩
abbrev main_v25 : Ref sig .tc := ⟨.hbm, 34, rfl⟩
abbrev main_cst_6 : Ref sig .tc := ⟨.hbm, 35, rfl⟩
abbrev main_v26 : Ref sig .tc := ⟨.hbm, 36, rfl⟩
abbrev main_cst_7 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_8 : Ref sig .tc := ⟨.hbm, 41, rfl⟩
abbrev main_v30 : Ref sig .tc := ⟨.hbm, 42, rfl⟩
abbrev main_cst_9 : Ref sig .tc := ⟨.hbm, 43, rfl⟩
abbrev main_v31 : Ref sig .tc := ⟨.hbm, 44, rfl⟩

abbrev nD : Nat := 1
abbrev τ : Topo := Topo.v7x

variable {F : FTy → Type} [FloatOps F]

class Facts₀ : Prop where
  slices_S4x19x512x1024_S1x19x512x1024_3_0_0_0 : S4x19x512x1024.Slices ![3, 0, 0, 0] S1x19x512x1024
  shapeCasts_S1x19x512x1024_S19x512x1024 : S1x19x512x1024.ShapeCasts S19x512x1024
  slices_S4x512x1024_S1x512x1024_3_0_0 : S4x512x1024.Slices ![3, 0, 0] S1x512x1024
  shapeCasts_S1x512x1024_S512x1024 : S1x512x1024.ShapeCasts S512x1024
  bcast_S512x1024_S1x512x1024_1_2 : S512x1024.BroadcastsInDim S1x512x1024 (![1, 2] : Fin 2 → Fin S1x512x1024.rank)
  bcast_S19_S19x1x1_0 : S19.BroadcastsInDim S19x1x1 (![0] : Fin 1 → Fin S19x1x1.rank)
  bcast_S1x512x1024_S19x512x1024_0_1_2 : S1x512x1024.BroadcastsInDim S19x512x1024 (![0, 1, 2] : Fin 3 → Fin S19x512x1024.rank)
  bcast_S19x1x1_S19x512x1024_0_1_2 : S19x1x1.BroadcastsInDim S19x512x1024 (![0, 1, 2] : Fin 3 → Fin S19x512x1024.rank)
  reducesTo_S19x512x1024_S19x512_d2 : S19x512x1024.ReducesTo [2] S19x512
  h_S_ : 0 < S_.numel
  bcast_S_S19x512 : S_.BroadcastsInDim S19x512 (![] : Fin 0 → Fin S19x512.rank)
  reducesTo_S19x512_S19_d1 : S19x512.ReducesTo [1] S19
  bcast_S_S19 : S_.BroadcastsInDim S19 (![] : Fin 0 → Fin S19.rank)
  slices_S19_S18_1 : S19.Slices ![1] S18
  reducesTo_S18_S_d0 : S18.ReducesTo [0] S_

variable [Facts₀]

class Facts : Prop extends Facts₀ where

variable [Facts]
-- ==== Proof.RowLoss.lean ====
/-
  The mathematics both programs compute, stated once and with no program in sight.

  For a class c, an image row h and the 1024 pixels w of that row, write p w for the prediction and t w for the
  integer label. With the indicator  ind (t w) c = 1 if the label is c, else 0,

      a = Σ_w p w · ind (t w) c        (the overlap of the prediction with class c along the row)
      b = Σ_w p w · p w + ε            (the prediction's energy along the row, regularised)
      d = Σ_w ind (t w) c + ε          (how many pixels of the row carry label c, regularised)

  and the row's loss is  1 − (2 · a) / (b + d).  Only the LAST of the four batch entries enters. The
  array of these losses, indexed by (c, h), is `lossArr`; the scalar result of either program is one fixed
  function of that array (a mean over h, a sum over the classes 1 … 18), which is never opened.

  The constants stay as the 32-bit words both programs print (1, 2, ε = f32 0.001): the same word on both
  sides denotes the same extended real, so none is ever evaluated.
-/
import Idealize.ShloMosaic.PureOps.Ideal
import Idealize.ShloMosaic.PureOps.Ideal.Laws
import Idealize.ShloMosaic.Lib.ValueIdx

noncomputable section

open scoped BigOperators

namespace Cert.RowLoss

open Idealize.ShloMosaic Idealize.ShloMosaic.ValueIdx

/-- The indicator of "the label word equals the class word", as an extended real: the one-bit result of the
    integer comparison read as the natural number 0 or 1. -/
def ind (t c : BitVec 32) : EReal := (((IntOp.cmpi .eq t c).toNat : ℝ) : EReal)

/-- A single bit widened to 32 bits by zero-extension and then read as a SIGNED integer is still 0 or 1:
    the sign bit of the widened word is clear. -/
theorem bit_signed (b : BitVec 1) : (b.setWidth 32).toInt = (b.toNat : Int) := by
  rcases BitVec.eq_zero_or_eq_one b with h | h <;> subst h <;> decide

/-- So the indicator may equally be read through the widened word as a signed integer. -/
theorem ind_signed (t c : BitVec 32) :
    ((((IntOp.cmpi .eq t c).setWidth 32).toInt : ℝ) : EReal) = ind t c := by
  unfold ind
  rw [bit_signed]
  norm_cast

/-- The loss of one (class, row) pair from the row's predictions `p`, the row's labels `t` and the class
    word `c`:  1 − (2 · Σ p·ind) / ((Σ p·p + ε) + (Σ ind + ε)). -/
def rowLoss (p : Fin 1024 → EReal) (t : Fin 1024 → BitVec 32) (c : BitVec 32) : EReal :=
  Ideal.ofBits .f32 0x3F800000#32 -
    Ideal.div (Ideal.ofBits .f32 0x40000000#32 * ∑ w : Fin 1024, p w * ind (t w) c)
      ((∑ w : Fin 1024, p w * p w + Ideal.ofBits .f32 0x3A83126F#32)
        + (∑ w : Fin 1024, ind (t w) c + Ideal.ofBits .f32 0x3A83126F#32))

/-- The array of row losses, indexed by (class, row), as a function of the two argument arrays
    (predictions [4, 19, 512, 1024], labels [4, 512, 1024]): batch entry 3 of each, the class word the class
    index itself. -/
def lossArr (pred : (⟨4, ![4, 19, 512, 1024]⟩ : Shape).Idx → EReal)
    (tgt : (⟨3, ![4, 512, 1024]⟩ : Shape).Idx → BitVec 32) : (⟨2, ![19, 512]⟩ : Shape).Idx → EReal :=
  fun i => rowLoss (fun w => pred (ix4 (3 : Fin 4) (i 0) (i 1) w)) (fun w => tgt (ix3 (3 : Fin 4) (i 1) w))
    (BitVec.ofNat 32 (i 0).val)

/-- Two row losses agree when the rows' predictions, the rows' labels and the class words agree. -/
theorem rowLoss_congr {p p' : Fin 1024 → EReal} {t t' : Fin 1024 → BitVec 32} {c c' : BitVec 32}
    (hp : ∀ w, p w = p' w) (ht : ∀ w, t w = t' w) (hc : c = c') : rowLoss p t c = rowLoss p' t' c' := by
  obtain rfl : p = p' := funext hp
  obtain rfl : t = t' := funext ht
  rw [hc]

/-! ## From the array of row losses to the result

Both programs finish with the same host operations on the [19, 512] array of row losses: the sum over the 512
rows divided by 512 (the mean), the classes 1 … 18 kept, their sum, and a product with 1. That is ONE function
of the array; it is stated here so that the two programs' results are both `total` of their arrays, and it is
never unfolded. -/

theorem rows_to_classes : (⟨2, ![19, 512]⟩ : Shape).ReducesTo [1] ⟨1, ![19]⟩ := by decide
theorem classes_to_scalar : (⟨1, ![18]⟩ : Shape).ReducesTo [0] ⟨0, ![]⟩ := by decide
theorem scalar_pos : 0 < (⟨0, ![]⟩ : Shape).numel := by decide
theorem scalar_to_classes : (⟨0, ![]⟩ : Shape).BroadcastsInDim ⟨1, ![19]⟩ (![] : Fin 0 → Fin 1) := by decide
theorem drop_class_zero : (⟨1, ![19]⟩ : Shape).Slices ![1] ⟨1, ![18]⟩ := by decide

/-- The scalar result from the array of row losses. -/
def total (L : FVec Ideal ⟨2, ![19, 512]⟩ .f32) : FVec Ideal ⟨0, ![]⟩ .f32 :=
  mulf (constant (F := Ideal) ⟨0, ![]⟩ .f32 0x3F800000#32)
    (Host.reduceAdd (F := Ideal)
      (extractStridedSlice ⟨1, ![18]⟩ ![1]
        (Host.divf (F := Ideal)
          (Host.reduceAdd (F := Ideal) L (constant (F := Ideal) ⟨0, ![]⟩ .f32 0x00000000#32) rows_to_classes scalar_pos)
          (broadcastInDim ⟨1, ![19]⟩ ![] scalar_to_classes (constant (F := Ideal) ⟨0, ![]⟩ .f32 0x44000000#32)))
        drop_class_zero)
      (constant (F := Ideal) ⟨0, ![]⟩ .f32 0x00000000#32) classes_to_scalar scalar_pos)

end Cert.RowLoss

end
-- ==== Proof.RefLoss.lean ====
/-
  The reference's array of row losses is `lossArr` of the two arguments.

  The reference takes batch entry 3 of the predictions by a slice and a reshape, batch entry 3 of the labels the
  same way, spreads the labels over the 19 classes and the class numbers over the pixels, compares, converts
  the bit to a float, and sums along the row three times. Read at an index (c, h) each of those steps is
  its operand at one index, and the three sums are sums over the pixel w of that row; the initial value
  of each sum is the zero word, which denotes 0.
-/
import proofs.«152780_j47399259079187_1_alg».proof.Proof.Gen.ReferenceIdeal.Read
import proofs.«152780_j47399259079187_1_alg».proof.Proof.RowLoss

noncomputable section

open scoped BigOperators

namespace Cert.ReferenceIdeal.RefLoss

open Cert.ReferenceIdeal Cert.ReferenceIdeal.Read Idealize.ShloMosaic Idealize.ShloMosaic.ValueIdx Cert.RowLoss

/-- Batch entry 3 of the predictions, at (c, h, w). -/
theorem pred_at (x0 : (⟨S4x19x512x1024, .f32⟩ : BufTy).Contents (Elt Ideal)) (c : Fin 19) (h : Fin 512) (w : Fin 1024) :
    val_main_v1 (F := Ideal) x0 (ix3 c h w) = x0 (ix4 (3 : Fin 4) c h w) := by
  rw [val_main_v1_apply, val_main_v0_apply]
  refine congrArg x0 (funext fun a => Fin.ext ?_)
  have hc : c.val < 19 := c.isLt
  have hh : h.val < 512 := h.isLt
  have hw : w.val < 1024 := w.isLt
  match a with
  | ⟨0, _⟩ => rfl
  | ⟨1, _⟩ => show ((c.val * 512 + h.val) * 1024 + w.val) / 524288 % 19 = c.val; omega
  | ⟨2, _⟩ => show ((c.val * 512 + h.val) * 1024 + w.val) / 1024 % 512 = h.val; omega
  | ⟨3, _⟩ => show ((c.val * 512 + h.val) * 1024 + w.val) % 1024 = w.val; omega

/-- The label spread over the classes, at (c, h, w): batch entry 3 of the labels at (h, w). -/
theorem label_at (x1 : (⟨S4x512x1024, .i32⟩ : BufTy).Contents (Elt Ideal)) (c : Fin 19) (h : Fin 512) (w : Fin 1024) :
    val_main_v7 (F := Ideal) x1 (ix3 c h w) = x1 (ix3 (3 : Fin 4) h w) := by
  rw [val_main_v7_apply, val_main_v4_apply, val_main_v3_apply, val_main_v2_apply]
  refine congrArg x1 (funext fun a => Fin.ext ?_)
  have hh : h.val < 512 := h.isLt
  have hw : w.val < 1024 := w.isLt
  match a with
  | ⟨0, _⟩ => rfl
  | ⟨1, _⟩ => show (h.val * 1024 + w.val) / 1024 % 512 = h.val; omega
  | ⟨2, _⟩ => show (h.val * 1024 + w.val) % 1024 = w.val; omega

/-- The class numbers spread over the pixels, at (c, h, w): the word of c. -/
theorem class_at (c : Fin 19) (h : Fin 512) (w : Fin 1024) :
    val_main_v8 (F := Ideal) (ix3 c h w) = BitVec.ofNat 32 c.val := by
  rw [val_main_v8_apply, val_main_v6_apply, val_main_v5_apply]

/-- The indicator as the reference converts it, at (c, h, w). -/
theorem ind_at (x1 : (⟨S4x512x1024, .i32⟩ : BufTy).Contents (Elt Ideal)) (c : Fin 19) (h : Fin 512) (w : Fin 1024) :
    val_main_v10 (F := Ideal) x1 (ix3 c h w) = ind (x1 (ix3 (3 : Fin 4) h w)) (BitVec.ofNat 32 c.val) := by
  rw [val_main_v10_apply, val_main_v9_apply, label_at, class_at]
  rfl

/-- The index of pixel w of row (c, h) in each of the three sums. -/
theorem row_idx (c : Fin 19) (h : Fin 512) (w : Fin 1024) : idx_main_v12 (ix2 c h) w = ix3 c h w :=
  funext fun a => Fin.ext (by match a with | ⟨0, _⟩ => rfl | ⟨1, _⟩ => rfl | ⟨2, _⟩ => rfl)

/-- THE REFERENCE'S ROW LOSSES: the array the reference averages is `lossArr` of its arguments. -/
theorem loss_eq (x0 : (⟨S4x19x512x1024, .f32⟩ : BufTy).Contents (Elt Ideal)) (x1 : (⟨S4x512x1024, .i32⟩ : BufTy).Contents (Elt Ideal)) :
    val_main_v25 (F := Ideal) x0 x1 = lossArr x0 x1 := by
  funext i
  obtain ⟨c, h, rfl⟩ : ∃ (c : Fin 19) (h : Fin 512), i = ix2 c h := ⟨i 0, i 1, eq_ix2 i⟩
  rw [val_main_v25_apply, val_main_v24_apply, val_main_cst_5_apply, val_main_v23_apply, val_main_v21_apply,
    val_main_v20_apply, val_main_cst_4_apply, val_main_v22_apply, val_main_v16_apply, val_main_v19_apply,
    val_main_v15_apply, val_main_cst_1_apply, val_main_v18_apply, val_main_cst_3_apply,
    val_main_v12_apply, val_main_v14_apply, val_main_v17_apply,
    val_main_cst_apply, val_main_cst_0_apply, val_main_cst_2_apply]
  simp only [show ∀ w, idx_main_v14 (ix2 c h) w = ix3 c h w from row_idx c h,
    show ∀ w, idx_main_v17 (ix2 c h) w = ix3 c h w from row_idx c h, row_idx,
    val_main_v11_apply, val_main_v13_apply, pred_at, ind_at,
    Ideal.ofBits_def, Ideal.subf_def, Ideal.hostDivf_def, Ideal.mulf_def, Ideal.addf_def, Ideal.ofBits_zero_f32, zero_add]
  rfl

/-- THE REFERENCE'S RESULT: `total` of the arguments' array of row losses (the operations after the row
    losses are `total`'s, word for word). -/
theorem result_eq (x0 : (⟨S4x19x512x1024, .f32⟩ : BufTy).Contents (Elt Ideal)) (x1 : (⟨S4x512x1024, .i32⟩ : BufTy).Contents (Elt Ideal)) :
    val_main_v31 (F := Ideal) x0 x1 = total (lossArr x0 x1) := by
  rw [← loss_eq]
  rfl

end Cert.ReferenceIdeal.RefLoss

end
-- ==== Proof.KernelRow.lean ====
/-
  What the kernel's body stores, read at one (class, row) of its [19, 128] block.

  The body holds one tile of 128 image rows: the predictions of all 19 classes on those rows (a
  [1, 19, 128, 1024] block) and the labels of those rows (a [128, 1024] block). It drops the predictions' unit
  axis, repeats the labels over the classes, numbers the classes along the leading axis, compares, widens the
  comparison bit to 32 bits and converts it as a signed integer, and sums three products along the pixel axis.
  At (c, h) that is `rowLoss` of row h's predictions for class c, row h's labels and the word of c.
-/
import proofs.«152780_j47399259079187_1_alg».proof.Proof.Gen.KernelIdeal.Skeleton
import proofs.«152780_j47399259079187_1_alg».proof.Proof.RowLoss
import Idealize.ShloMosaic.Lib.Pipeline.Value

noncomputable section

open scoped BigOperators

namespace Cert.KernelIdeal.KernelRow

open Cert.KernelIdeal Cert.KernelIdeal.Gen Idealize.ShloMosaic Idealize.ShloMosaic.ValueIdx Cert.RowLoss

/-- A sum along the pixel axis of a [19, 128, 1024] vector, read at (c, h): the sum over the pixels w of
    the entry at (c, h, w). -/
theorem lane_sum (src : FVec Ideal S19x128x1024 .f32) (hr : S19x128x1024.Reduces [2] S19x128) (hφ : FKind.Formats .f32)
    (hacc : (0x00000000#32 : BitVec 32) = FKind.add.neutral .f32 hφ) (c : Fin 19) (h : Fin 128) :
    multiReduction .add [2] S19x128 src 0x00000000#32 hr hφ hacc (ix2 c h) = ∑ w : Fin 1024, src (ix3 c h w) := by
  refine (Ideal.multiReduction_add_single src 0x00000000#32 hr hφ hacc (ix2 c h)).trans ?_
  refine Finset.sum_congr rfl fun w _ => congrArg src (funext fun a => Fin.ext ?_)
  match a with
  | ⟨0, _⟩ => rfl
  | ⟨1, _⟩ => rfl
  | ⟨2, _⟩ => rfl

/-- The block's predictions with the unit axis dropped. -/
def preds (x0 : Vec Ideal S1x19x128x1024 .f32) : FVec Ideal S19x128x1024 .f32 :=
  shapeCast S19x128x1024 x0 shapeCasts_S1x19x128x1024_S19x128x1024

/-- The block's labels repeated over the 19 classes. -/
def labels (x1 : Vec Ideal S128x1024 .i32) : IVec S19x128x1024 32 :=
  broadcastTo S19x128x1024
    (shapeCast S1x128x1024 (shapeCast S128x1024 x1 shapeCasts_S128x1024_S128x1024) shapeCasts_S128x1024_S1x128x1024)
    broadcasts_S1x128x1024_S19x128x1024

/-- The class numbers along the leading axis. -/
def classes : IVec S19x128x1024 32 := iota .tc S19x128x1024 32 [0] iota_S19x128x1024_d0_w32

/-- The indicator of "this pixel's label is this class", as the body converts it. -/
def onehot (x1 : Vec Ideal S128x1024 .i32) : FVec Ideal S19x128x1024 .f32 :=
  sitofp .f32 (extui 32 (cmpi .eq (labels x1) classes) natLt_1_32)

theorem preds_at (x0 : Vec Ideal S1x19x128x1024 .f32) (c : Fin 19) (h : Fin 128) (w : Fin 1024) :
    preds x0 (ix3 c h w) = x0 (ix4 (0 : Fin 1) c h w) := by
  unfold preds
  refine shapeCast_apply x0 shapeCasts_S1x19x128x1024_S19x128x1024 (ix3 c h w) (ix4 (0 : Fin 1) c h w) ?_
  rw [Shape.rowMajor_val_four, Shape.rowMajor_val_three]
  show ((0 * 19 + c.val) * 128 + h.val) * 1024 + w.val = (c.val * 128 + h.val) * 1024 + w.val
  omega

theorem labels_at (x1 : Vec Ideal S128x1024 .i32) (c : Fin 19) (h : Fin 128) (w : Fin 1024) :
    labels x1 (ix3 c h w) = x1 (ix2 h w) := by
  unfold labels
  rw [shapeCast_self]
  refine (broadcastTo_apply _ broadcasts_S1x128x1024_S19x128x1024 (ix3 c h w) (ix3 (0 : Fin 1) h w) (fun a => ?_)).trans ?_
  · match a with
    | ⟨0, _⟩ => show 0 = if (1 : Nat) = 1 then 0 else _; rw [if_pos rfl]
    | ⟨1, _⟩ => show h.val = if (128 : Nat) = 1 then 0 else h.val; rw [if_neg (by decide)]
    | ⟨2, _⟩ => show w.val = if (1024 : Nat) = 1 then 0 else w.val; rw [if_neg (by decide)]
  · refine shapeCast_apply x1 shapeCasts_S128x1024_S1x128x1024 (ix3 (0 : Fin 1) h w) (ix2 h w) ?_
    rw [Shape.rowMajor_val_two, Shape.rowMajor_val_three]
    show h.val * 1024 + w.val = (0 * 128 + h.val) * 1024 + w.val
    omega

theorem classes_at (c : Fin 19) (h : Fin 128) (w : Fin 1024) : classes (ix3 c h w) = BitVec.ofNat 32 c.val := by
  unfold classes
  exact iota_single_apply .tc S19x128x1024 32 0 iota_S19x128x1024_d0_w32 (ix3 c h w)

theorem onehot_at (x1 : Vec Ideal S128x1024 .i32) (c : Fin 19) (h : Fin 128) (w : Fin 1024) :
    onehot x1 (ix3 c h w) = ind (x1 (ix2 h w)) (BitVec.ofNat 32 c.val) := by
  show ((((IntOp.cmpi .eq (labels x1 (ix3 c h w)) (classes (ix3 c h w))).setWidth 32).toInt : ℝ) : EReal) = _
  rw [labels_at, classes_at]
  exact ind_signed _ _

/-- The body's stored value is this expression of the three pixel sums. -/
theorem pay_eq (x0 : Vec Ideal S1x19x128x1024 .f32) (x1 : Vec Ideal S128x1024 .i32) :
    k0_pay1 (F := Ideal) x0 x1
      = subf (broadcast S19x128 (Scalar.ofBits .f32 0x3F800000#32))
          (divf (mulf (broadcast S19x128 (Scalar.ofBits .f32 0x40000000#32))
              (multiReduction .add [2] S19x128 (mulf (preds x0) (onehot x1)) 0x00000000#32 reduces_S19x128x1024_S19x128 (.inl rfl) rfl))
            (addf (addf (multiReduction .add [2] S19x128 (mulf (preds x0) (preds x0)) 0x00000000#32 reduces_S19x128x1024_S19x128 (.inl rfl) rfl)
                (broadcast S19x128 (Scalar.ofBits .f32 0x3A83126F#32)))
              (addf (multiReduction .add [2] S19x128 (onehot x1) 0x00000000#32 reduces_S19x128x1024_S19x128 (.inl rfl) rfl)
                (broadcast S19x128 (Scalar.ofBits .f32 0x3A83126F#32))))) := rfl

/-- THE BODY'S VALUE AT (c, h): the row loss of row h's predictions for class c and row h's labels. -/
theorem pay_at (x0 : Vec Ideal S1x19x128x1024 .f32) (x1 : Vec Ideal S128x1024 .i32) (c : Fin 19) (h : Fin 128) :
    k0_pay1 (F := Ideal) x0 x1 (ix2 c h)
      = rowLoss (fun w => x0 (ix4 (0 : Fin 1) c h w)) (fun w => x1 (ix2 h w)) (BitVec.ofNat 32 c.val) := by
  have e1 := lane_sum (mulf (preds x0) (onehot x1)) reduces_S19x128x1024_S19x128 (.inl rfl) rfl c h
  have e2 := lane_sum (mulf (preds x0) (preds x0)) reduces_S19x128x1024_S19x128 (.inl rfl) rfl c h
  have e3 := lane_sum (onehot x1) reduces_S19x128x1024_S19x128 (.inl rfl) rfl c h
  rw [pay_eq]
  show Ideal.ofBits .f32 0x3F800000#32 -
      Ideal.div (Ideal.ofBits .f32 0x40000000#32 *
          multiReduction .add [2] S19x128 (mulf (preds x0) (onehot x1)) 0x00000000#32 reduces_S19x128x1024_S19x128 (.inl rfl) rfl (ix2 c h))
        ((multiReduction .add [2] S19x128 (mulf (preds x0) (preds x0)) 0x00000000#32 reduces_S19x128x1024_S19x128 (.inl rfl) rfl (ix2 c h)
            + Ideal.ofBits .f32 0x3A83126F#32)
          + (multiReduction .add [2] S19x128 (onehot x1) 0x00000000#32 reduces_S19x128x1024_S19x128 (.inl rfl) rfl (ix2 c h)
            + Ideal.ofBits .f32 0x3A83126F#32)) = _
  rw [e1, e2, e3]
  unfold rowLoss
  simp only [mulf_apply, preds_at, onehot_at]

end Cert.KernelIdeal.KernelRow

end
-- ==== Proof.KernelArray.lean ====
/-
  From the kernel's blocks to its whole [19, 512] array of row losses, and on to its scalar result.

  The grid has 4 points; point t works on image rows 128·t … 128·t + 127. Its three windows move
  together: the prediction block is batch entry 3, all 19 classes, rows 128·t …, all pixels; the label block
  is rows 128·t … of the label array the region is given; the output block is all classes, columns
  128·t … of the result. The label array the region is given is itself batch entry 3 of the labels (a
  slice and a reshape on the host before the region). So what point t writes back is block t of `lossArr`
  of the two arguments, the 4 blocks tile the array, and the array ends as `lossArr`. The host lines after
  the region then apply `total`.
-/
import proofs.«152780_j47399259079187_1_alg».proof.Proof.Gen.KernelIdeal.Frame
import proofs.«152780_j47399259079187_1_alg».proof.Proof.KernelRow
import Idealize.ShloMosaic.Lib.Pipeline.Value
import Idealize.ShloMosaic.Lib.StableHlo.Run

noncomputable section

open scoped BigOperators

namespace Cert.KernelIdeal.KernelArray

open Cert.KernelIdeal Cert.KernelIdeal.Gen Idealize.ShloMosaic Idealize.ShloMosaic.TcCoe Idealize.SL.Sem
open Idealize.ShloMosaic.ValueIdx Cert.RowLoss Cert.KernelIdeal.KernelRow
open Idealize.ShloMosaic.Pipeline (Dat)

variable (m : (ℓ : Loc nD τ sig) → Buf (Elt Ideal) ℓ) (ρ : Dev nD → PrngReg)

/-! ## The label array the region is given -/

/-- Batch entry 3 of the labels, sliced and reshaped by the two host lines before the region. -/
theorem labels_entry (c : Dev nD) :
    V m c main_v1
      = shapeCast S512x1024 (extractStridedSlice S1x512x1024 ![3, 0, 0] (m ((c : Thread nD τ).loc main_arg1))
          slices_S4x512x1024_S1x512x1024_3_0_0) shapeCasts_S1x512x1024_S512x1024 := by
  show StableHlo.after hostOps0 (fun b => m (c, b)) (Proc.devRef .tc main_v1) = _
  after_results
  rfl

/-- Read at (h, w): the labels at (3, h, w). -/
theorem labels_entry_at (c : Dev nD) (h : Fin 512) (w : Fin 1024) :
    (V m c main_v1 : S512x1024.Idx → BitVec 32) (ix2 h w)
      = (m ((c : Thread nD τ).loc main_arg1) : S4x512x1024.Idx → BitVec 32) (ix3 (3 : Fin 4) h w) := by
  rw [labels_entry]
  refine (shapeCast_apply _ shapeCasts_S1x512x1024_S512x1024 (ix2 h w) (ix3 (0 : Fin 1) h w) ?_).trans ?_
  · rw [Shape.rowMajor_val_three, Shape.rowMajor_val_two]
    show (0 * 512 + h.val) * 1024 + w.val = h.val * 1024 + w.val
    omega
  · exact extractStridedSlice_apply ![3, 0, 0] _ slices_S4x512x1024_S1x512x1024_3_0_0 (ix3 (0 : Fin 1) h w)
      (ix3 (3 : Fin 4) h w) (fun a => match a with
        | ⟨0, _⟩ => rfl
        | ⟨1, _⟩ => by show h.val = 0 + h.val; omega
        | ⟨2, _⟩ => by show w.val = 0 + w.val; omega)

/-! ## What a point writes back -/

/-- The array of row losses of the two arguments as launched. -/
def lossOf (c : Dev nD) : S19x512.Idx → EReal :=
  lossArr (m ((c : Thread nD τ).loc main_arg0)) (m ((c : Thread nD τ).loc main_arg1))

/-- The body's value at an index j of its block is `lossArr` at an index i of the array, as soon as the
    block's row of predictions, its row of labels and its class are those `lossArr` reads at i. -/
theorem block_row (x0 : Vec Ideal S1x19x128x1024 .f32) (x1 : Vec Ideal S128x1024 .i32)
    (A0 : S4x19x512x1024.Idx → EReal) (A1 : S4x512x1024.Idx → BitVec 32) (i : S19x512.Idx) (j : S19x128.Idx)
    (h0 : ∀ w : Fin 1024, x0 (ix4 (0 : Fin 1) (j 0) (j 1) w) = A0 (ix4 (3 : Fin 4) (i 0) (i 1) w))
    (h1 : ∀ w : Fin 1024, x1 (ix2 (j 1) w) = A1 (ix3 (3 : Fin 4) (i 1) w))
    (hc : (j 0).val = (i 0).val) :
    k0_pay1 (F := Ideal) x0 x1 j = lossArr A0 A1 i := by
  obtain ⟨cc, hh, rfl⟩ : ∃ (cc : Fin 19) (hh : Fin 128), j = ix2 cc hh := ⟨j 0, j 1, eq_ix2 j⟩
  rw [pay_at]
  unfold lossArr
  exact rowLoss_congr h0 h1 (congrArg (BitVec.ofNat 32) hc)

theorem zeros2 : (![0, 0] : Fin 2 → Nat) = fun _ => 0 := funext fun a => by fin_cases a <;> rfl
theorem zeros4 : (![0, 0, 0, 0] : Fin 4 → Nat) = fun _ => 0 := funext fun a => by fin_cases a <;> rfl

/-- Where the three windows' blocks sit at point t, decided over the 4 points: the prediction block at
    (3, 0, t, 0), the label block at (t, 0), the output block at (0, t). -/
theorem blocks_at : ∀ t : Fin cfg0.N,
    win0_0.index t (0 : Fin 4) = 3 ∧ win0_0.index t (1 : Fin 4) = 0 ∧ win0_0.index t (2 : Fin 4) = t.val
    ∧ win0_0.index t (3 : Fin 4) = 0 ∧ win0_1.index t (0 : Fin 2) = t.val ∧ win0_1.index t (1 : Fin 2) = 0
    ∧ win0_2.index t (0 : Fin 2) = 0 ∧ win0_2.index t (1 : Fin 2) = t.val ∧ t.val ≤ 3 :=
  (by decide +kernel : ∀ t : Fin grid0.N, _)

/-- Every column block of the output is some point's. -/
theorem block_of_col : ∀ q : Fin 4, ∃ t : Fin cfg0.N, win0_2.index t = ![0, q.val] :=
  (by decide +kernel : ∀ q : Fin 4, ∃ t : Fin grid0.N, win0_2.index t = ![0, q.val])

/-- WHAT POINT t WRITES BACK is block t of the arguments' array of row losses. -/
theorem flushed_eq (c : Dev nD) (t : Fin cfg0.N) :
    (dats m 0 c).flushed 2 t = ((cfg0.win 2).blk t).view.read (Elt Ideal) (lossOf m c) := by
  show (cfg0.win 2).cut (grid0.coords t) ((dats m 0 c).after 2 t) = _
  rw [after0_2]
  unfold out0_2
  rw [View.canon_unit_zero zeros2]
  simp only [View.ld_unit_zero (S := S1x19x128x1024) zeros4, View.ld_unit_zero (S := S128x1024) zeros2]
  obtain ⟨e00, e01, e02, e03, e10, e11, e20, e21, ht⟩ := blocks_at t
  funext j
  show k0_pay1 (F := Ideal) (iblk m c 0 t) (iblk m c 1 t) j = lossOf m c (((cfg0.win 2).blk t).view.emb j)
  unfold lossOf
  have hj0 : (j 0).val < 19 := idx2_lt0 j
  have hj1 : (j 1).val < 128 := idx2_lt1 j
  refine block_row (iblk m c 0 t) (iblk m c 1 t) _ _ (((cfg0.win 2).blk t).view.emb j) j ?_ ?_ ?_
  · intro w
    show V m c main_arg0 (((cfg0.win 0).blk t).view.emb (ix4 (0 : Fin 1) (j 0) (j 1) w)) = _
    rw [V_main_arg0]
    refine congrArg _ (funext fun a => Fin.ext ?_)
    match a with
    | ⟨0, _⟩ => show win0_0.index t (0 : Fin 4) * 1 + 1 * 0 = 3; omega
    | ⟨1, _⟩ => show win0_0.index t (1 : Fin 4) * 19 + 1 * (j 0).val = win0_2.index t (0 : Fin 2) * 19 + 1 * (j 0).val; omega
    | ⟨2, _⟩ => show win0_0.index t (2 : Fin 4) * 128 + 1 * (j 1).val = win0_2.index t (1 : Fin 2) * 128 + 1 * (j 1).val; omega
    | ⟨3, _⟩ => show win0_0.index t (3 : Fin 4) * 1024 + 1 * w.val = w.val; omega
  · intro w
    show V m c main_v1 (((cfg0.win 1).blk t).view.emb (ix2 (j 1) w)) = _
    have key : ((cfg0.win 1).blk t).view.emb (ix2 (j 1) w)
        = (ix2 (⟨t.val * 128 + (j 1).val, by omega⟩ : Fin 512) w : S512x1024.Idx) :=
      funext fun a => Fin.ext (by
        match a with
        | ⟨0, _⟩ => show win0_1.index t (0 : Fin 2) * 128 + 1 * (j 1).val = t.val * 128 + (j 1).val; omega
        | ⟨1, _⟩ => show win0_1.index t (1 : Fin 2) * 1024 + 1 * w.val = w.val; omega)
    rw [key, labels_entry_at]
    refine congrArg _ (funext fun a => Fin.ext ?_)
    match a with
    | ⟨0, _⟩ => rfl
    | ⟨1, _⟩ => show t.val * 128 + (j 1).val = win0_2.index t (1 : Fin 2) * 128 + 1 * (j 1).val; omega
    | ⟨2, _⟩ => rfl
  · show (j 0).val = win0_2.index t (0 : Fin 2) * 19 + 1 * (j 0).val
    omega

/-! ## The array after the run -/

/-- An index of the array is in point t's block iff each coordinate is in the block's range on its axis. -/
theorem mem_blk (t : Fin cfg0.N) (i : S19x512.Idx) :
    i ∈ ((cfg0.win 2).blk t).view.set ↔ ∀ a : Fin 2, win0_2.index t a * S19x128.size a ≤ (i a).val
      ∧ (i a).val < win0_2.index t a * S19x128.size a + S19x128.size a := by
  show i ∈ ((View.whole main_v2).slice (win0_2.rect t)).set ↔ _
  rw [View.set_slice_whole, Rect.mem_set_unit]
  exact Iff.rfl

/-- The 4 blocks tile the array: column r lies in the block of point r / 128. -/
theorem covered (i : S19x512.Idx) :
    ∃ t : Fin cfg0.N, (cfg0.win 2).flush t = true ∧ i ∈ ((cfg0.win 2).blk t).view.set := by
  have hi0 : (i 0).val < 19 := idx2_lt0 i
  have hi1 : (i 1).val < 512 := idx2_lt1 i
  obtain ⟨t, ht⟩ := block_of_col ⟨(i 1).val / 128, by omega⟩
  have q0 : win0_2.index t (0 : Fin 2) = 0 := congrFun ht 0
  have q1 : win0_2.index t (1 : Fin 2) = (i 1).val / 128 := congrFun ht 1
  refine ⟨t, flush0_2 t, ?_⟩
  rw [mem_blk]
  intro a
  match a with
  | ⟨0, _⟩ => show win0_2.index t (0 : Fin 2) * 19 ≤ (i 0).val ∧ (i 0).val < win0_2.index t (0 : Fin 2) * 19 + 19; omega
  | ⟨1, _⟩ => show win0_2.index t (1 : Fin 2) * 128 ≤ (i 1).val ∧ (i 1).val < win0_2.index t (1 : Fin 2) * 128 + 128; omega

/-- THE ARRAY after the run is the arguments' array of row losses. -/
theorem final (c : Dev nD) : (dats m 0 c).arrAt 2 cfg0.N = lossOf m c :=
  (dats m 0 c).arrAt_eq_of_cover 2 (lossOf m c) (fun t _ => flushed_eq m c t) covered

end Cert.KernelIdeal.KernelArray

end
-- ==== Proof.KernelResult.lean ====
/-
  The kernel program's run, with its scalar result named: `total` of the arguments' array of row losses.

  After the region the host sums the [19, 512] array over its rows, divides by 512, keeps classes 1 … 18, sums
  them and multiplies by 1: the function `total`, applied to the array the region leaves, which is
  `lossArr` of the arguments. The two argument arrays end as they were launched: the predictions are only
  staged in, and the labels are read by the host line before the region and never written.
-/
import proofs.«152780_j47399259079187_1_alg».proof.Proof.KernelArray

noncomputable section

namespace Cert.KernelIdeal.KernelResult

open Cert.KernelIdeal Cert.KernelIdeal.Gen Idealize.ShloMosaic Idealize.ShloMosaic.TcCoe Idealize.SL.Sem
open Cert.RowLoss Cert.KernelIdeal.KernelArray
open Idealize.ShloMosaic.Pipeline (Dat)

variable (m : (ℓ : Loc nD τ sig) → Buf (Elt Ideal) ℓ) (ρ : Dev nD → PrngReg)

/-- The host lines after the region turn the region's output array into `total` of it. -/
theorem result_eq (c : Dev nD) :
    Pipeline.afterTail₀ cfgs (dats m) 0 (V0 m) [hostOps1] c main_v8 = total (lossOf m c) := by
  unfold Pipeline.afterTail₀
  show StableHlo.after hostOps1 _ (Proc.devRef .tc main_v8) = _
  after_results
  have hW : Pipeline.withArrays (cfgs 0).spec c (V0 m c) (fun w => (dats m 0 c).arrAt w (cfgs 0).N)
      (Proc.devRef .tc main_v2) = lossOf m c :=
    (Pipeline.withArrays_arr spec0 launch0.win.arr_inj c _ _ 2).trans (final m c)
  rw [hW]
  rfl

/-- THE KERNEL PROGRAM'S RUN: every weakly fair execution terminates, the result holds `total` of the
    arguments' array of row losses, and the arguments are unchanged. -/
theorem run : θ_run defs (onTc (τ := τ) (main (F := Ideal))) ⟨m, fun _ => 0, ρ⟩ fun r => ∀ c : Dev nD,
      r.2.mem ((c.tc : Thread nD τ).loc main_v8) = total (lossOf m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
      ⟨((h c).2 main_v8 (Pipeline.mem_restRefs_of main_v8 (by decide) (by decide))).trans (result_eq m c),
        ((h c).1 0).trans (((dats m 0 c).arrAt_in 0 rfl _).trans ((A_eq m c 0).trans (V_main_arg0 m c))),
        ((h c).2 main_arg1 (Pipeline.mem_restRefs_of main_arg1 (by decide) (by decide))).trans (W_main_arg1 m (dats m) c)⟩)
    (run_main m ρ)

end Cert.KernelIdeal.KernelResult

end
-- ==== Proof.lean ====
/-
  A per-row dice loss over the last batch entry, as a tiled kernel and as plain array code: the two
  are one function on the extended reals.

  Both programs take predictions p : [4, 19, 512, 1024] and integer labels t : [4, 512, 1024], use only batch
  entry 3, and for every class c and image row h form, over the 1024 pixels w of the row,

      a = Σ_w p·[t = c],   b = Σ_w p·p + ε,   d = Σ_w [t = c] + ε,   loss(c, h) = 1 − 2a / (b + d),

  then average the losses over the 512 rows, sum the classes 1 … 18 and multiply by 1.

  The kernel tiles the rows in 4 blocks of 128; each grid point computes loss(·, h) for its 128 rows from the
  blocks of p and t it is handed, and the 4 output blocks tile the [19, 512] array of losses. The reference
  computes the same array with whole-array operations. The two differ only in spelling: a block fetched at
  batch index 3 against a slice and a reshape; the class number from a vector iota against a broadcast host
  iota; the comparison bit widened and read signed against read unsigned (both 0 or 1); a lane reduction
  against a host reduction (both the sum over w, the initial word denoting 0). Every product, sum and
  quotient has its operands in the same order on both sides and every constant is the same word, so no
  law of arithmetic is used and the finiteness of the inputs is never opened: the equality holds for
  every extended-real input.

  `RowLoss` states loss(c, h) and the final scalar (`total`) once; `RefLoss` reads the reference's array as
  that function; `KernelRow` reads the kernel body's block; `KernelArray` assembles the 4 blocks into the
  array; `KernelResult` applies the host lines after the region. The three frames are the generated ones (the
  reference's is its generated run with the result dropped), and the idealization rewrote nothing, so
  `preserves` is `True`.
-/
import proofs.«152780_j47399259079187_1_alg».proof.Defs
import proofs.«152780_j47399259079187_1_alg».proof.Proof.Gen.Kernel
import proofs.«152780_j47399259079187_1_alg».proof.Proof.Gen.Kernel.Frame
import proofs.«152780_j47399259079187_1_alg».proof.Proof.Gen.KernelIdeal
import proofs.«152780_j47399259079187_1_alg».proof.Proof.Gen.KernelIdeal.Frame
import proofs.«152780_j47399259079187_1_alg».proof.Proof.Gen.ReferenceIdeal
import proofs.«152780_j47399259079187_1_alg».proof.Proof.Gen.Pre_finite_inputs
import proofs.«152780_j47399259079187_1_alg».proof.Proof.Gen.ReferenceIdeal.Run
import proofs.«152780_j47399259079187_1_alg».proof.Proof.Gen.ReferenceIdeal.Read
import proofs.«152780_j47399259079187_1_alg».proof.Proof.RefLoss
import proofs.«152780_j47399259079187_1_alg».proof.Proof.KernelResult
import Idealize.ShloMosaic.Adequacy
import Idealize.ShloMosaic.Init

noncomputable section

namespace Cert.Proof

open Idealize.ShloMosaic Idealize.SL.Sem

/-- The word-level kernel program runs and leaves its arguments unchanged. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference has no kernel: its frame is its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the two arguments, both programs end with `total` of the arguments' array
    of row losses. -/
theorem algebraic : Cert.algebraic_KernelIdeal_ReferenceIdeal := by
  intro m ρ m' ρ' _ hagree
  refine ⟨fun c => Cert.RowLoss.total (Cert.KernelIdeal.KernelArray.lossOf m c),
    Cert.KernelIdeal.KernelResult.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v31_eq, Cert.ReferenceIdeal.RefLoss.result_eq, (hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
